-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S4096x1024 .f32) (main_arg2 : FVec F S4096 .f32) (main_arg3 : FVec F S1024x4096 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S8192x1024 : Shape := ⟨2, ![8192, 1024]⟩
abbrev S_ : Shape := ⟨0, ![]⟩
abbrev S1x4096 : Shape := ⟨2, ![1, 4096]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩

abbrev nBuf : Space → Nat
  | .hbm => 75
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4096, .bf16⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S1x4096, .f32⟩
  | .hbm, ⟨39, _⟩ => ⟨S_, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024x4096, .f32⟩
  | .hbm, ⟨47, _⟩ => ⟨S1024x4096, .f32⟩
  | .hbm, ⟨48, _⟩ => ⟨S_, .f32⟩
  | .hbm, ⟨49, _⟩ => ⟨S1024x4096, .f32⟩
  | .hbm, ⟨50, _⟩ => ⟨S1024x4096, .f32⟩
  | .hbm, ⟨51, _⟩ => ⟨S_, .f32⟩
  | .hbm, ⟨52, _⟩ => ⟨S1024x4096, .f32⟩
  | .hbm, ⟨53, _⟩ => ⟨S1024x4096, .f32⟩
  | .hbm, ⟨54, _⟩ => ⟨S1024x4096, .bf16⟩
  | .hbm, ⟨55, _⟩ => ⟨S4096x1024, .bf16⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1x1024, .f32⟩
  | .hbm, ⟨72, _⟩ => ⟨S8192x4096, .bf16⟩
  | .hbm, ⟨73, _⟩ => ⟨S8192x1024, .f32⟩
  | .hbm, ⟨74, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S4096x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_cst_5 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v12 : Ref sig .tc := ⟨.hbm, 34, rfl⟩
abbrev main_cst_6 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_7 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_8 : Ref sig .tc := ⟨.hbm, 43, rfl⟩
abbrev main_cst_9 : Ref sig .tc := ⟨.hbm, 44, rfl⟩
abbrev main_call5_v0 : Ref sig .tc := ⟨.hbm, 45, rfl⟩
abbrev main_call5_v1 : Ref sig .tc := ⟨.hbm, 46, rfl⟩
abbrev main_call5_v2 : Ref sig .tc := ⟨.hbm, 47, rfl⟩
abbrev main_call5_v3 : Ref sig .tc := ⟨.hbm, 48, rfl⟩
abbrev main_call5_v4 : Ref sig .tc := ⟨.hbm, 49, rfl⟩
abbrev main_v19 : Ref sig .tc := ⟨.hbm, 50, rfl⟩
abbrev main_cst_10 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_11 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_12 : Ref sig .tc := ⟨.hbm, 60, rfl⟩
abbrev main_cst_13 : Ref sig .tc := ⟨.hbm, 61, rfl⟩
abbrev main_call7_v0 : Ref sig .tc := ⟨.hbm, 62, rfl⟩
abbrev main_call7_v1 : Ref sig .tc := ⟨.hbm, 63, rfl⟩
abbrev main_call7_v2 : Ref sig .tc := ⟨.hbm, 64, rfl⟩
abbrev main_call7_v3 : Ref sig .tc := ⟨.hbm, 65, rfl⟩
abbrev main_call7_v4 : Ref sig .tc := ⟨.hbm, 66, rfl⟩
abbrev main_v27 : Ref sig .tc := ⟨.hbm, 67, rfl⟩
abbrev main_cst_14 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x2048x1024_S8192x1024 : S4x2048x1024.ShapeCasts S8192x1024
  bcast_S_S4096x1024 : S_.BroadcastsInDim S4096x1024 (![] : Fin 0 → Fin S4096x1024.rank)
  bitsLt_bf16_f32 : FTy.bits .bf16 < FTy.bits .f32
  transposes_S4096x1024_S1024x4096_1_0 : S4096x1024.Transposes [1, 0] S1024x4096
  bcast_S_S4096 : S_.BroadcastsInDim S4096 (![] : Fin 0 → Fin S4096.rank)
  shapeCasts_S4096_S1x4096 : S4096.ShapeCasts S1x4096
  bcast_S_S1024x4096 : S_.BroadcastsInDim S1024x4096 (![] : Fin 0 → Fin S1024x4096.rank)
  transposes_S1024x4096_S4096x1024_1_0 : S1024x4096.Transposes [1, 0] S4096x1024
  bcast_S_S1024 : S_.BroadcastsInDim S1024 (![] : Fin 0 → Fin S1024.rank)
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S8192x1024_S4x2048x1024 : S8192x1024.ShapeCasts S4x2048x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .bf16 = 32 ∨ (Rect.block (s := S8192x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x1024.size a
  hwx1_3 : ∀ i : grid1.Coords, EltTy.bits .f32 = 32 ∨ (Rect.block (s := S8192x1024) S256x1024.size (cc1_transform_3 i) (hinb1_3 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S4x2048x4096 : Shape := ⟨3, ![4, 2048, 4096]⟩
abbrev S1x1x4096 : Shape := ⟨3, ![1, 1, 4096]⟩
abbrev S1x1x1024 : Shape := ⟨3, ![1, 1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4x2048x4096, .f32⟩
  | .hbm, ⟨45, _⟩ => ⟨S1x1x4096, .f32⟩
  | .hbm, ⟨46, _⟩ => ⟨S4x2048x4096, .f32⟩
  | .hbm, ⟨47, _⟩ => ⟨S4x2048x4096, .f32⟩
  | .hbm, ⟨48, _⟩ => ⟨S_, .f32⟩
  | .hbm, ⟨49, _⟩ => ⟨S4x2048x4096, .f32⟩
  | .hbm, ⟨50, _⟩ => ⟨S4x2048x4096, .f32⟩
  | .hbm, ⟨51, _⟩ => ⟨S4x2048x4096, .f32⟩
  | .hbm, ⟨52, _⟩ => ⟨S_, .f32⟩
  | .hbm, ⟨53, _⟩ => ⟨S_, .f32⟩
  | .hbm, ⟨54, _⟩ => ⟨S4x2048x4096, .f32⟩
  | .hbm, ⟨55, _⟩ => ⟨S4x2048x4096, .f32⟩
  | .hbm, ⟨56, _⟩ => ⟨S4x2048x4096, .f32⟩
  | .hbm, ⟨57, _⟩ => ⟨S4x2048x4096, .f32⟩
  | .hbm, ⟨58, _⟩ => ⟨S_, .f32⟩
  | .hbm, ⟨59, _⟩ => ⟨S4x2048x4096, .f32⟩
  | .hbm, ⟨60, _⟩ => ⟨S4x2048x4096, .f32⟩
  | .hbm, ⟨61, _⟩ => ⟨S_, .f32⟩
  | .hbm, ⟨62, _⟩ => ⟨S4x2048x4096, .f32⟩
  | .hbm, ⟨63, _⟩ => ⟨S4x2048x4096, .f32⟩
  | .hbm, ⟨64, _⟩ => ⟨S_, .f32⟩
  | .hbm, ⟨65, _⟩ => ⟨S4x2048x4096, .f32⟩
  | .hbm, ⟨66, _⟩ => ⟨S4x2048x4096, .f32⟩
  | .hbm, ⟨67, _⟩ => ⟨S4x2048x4096, .f32⟩
  | .hbm, ⟨68, _⟩ => ⟨S_, .f32⟩
  | .hbm, ⟨69, _⟩ => ⟨S_, .f32⟩
  | .hbm, ⟨70, _⟩ => ⟨S4x2048x4096, .f32⟩
  | .hbm, ⟨71, _⟩ => ⟨S4x2048x4096, .f32⟩
  | .hbm, ⟨72, _⟩ => ⟨S4x2048x4096, .f32⟩
  | .hbm, ⟨73, _⟩ => ⟨S4x2048x4096, .f32⟩
  | .hbm, ⟨74, _⟩ => ⟨S_, .f32⟩
  | .hbm, ⟨75, _⟩ => ⟨S4x2048x4096, .f32⟩
  | .hbm, ⟨76, _⟩ => ⟨S4x2048x4096, .f32⟩
  | .hbm, ⟨77, _⟩ => ⟨S_, .f32⟩
  | .hbm, ⟨78, _⟩ => ⟨S1024x4096, .f32⟩
  | .hbm, ⟨79, _⟩ => ⟨S1024x4096, .f32⟩
  | .hbm, ⟨80, _⟩ => ⟨S1024x4096, .f32⟩
  | .hbm, ⟨81, _⟩ => ⟨S_, .f32⟩
  | .hbm, ⟨82, _⟩ => ⟨S_, .f32⟩
  | .hbm, ⟨83, _⟩ => ⟨S1024x4096, .f32⟩
  | .hbm, ⟨84, _⟩ => ⟨S1024x4096, .f32⟩
  | .hbm, ⟨85, _⟩ => ⟨S1024x4096, .f32⟩
  | .hbm, ⟨86, _⟩ => ⟨S1024x4096, .f32⟩
  | .hbm, ⟨87, _⟩ => ⟨S_, .f32⟩
  | .hbm, ⟨88, _⟩ => ⟨S1024x4096, .f32⟩
  | .hbm, ⟨89, _⟩ => ⟨S1024x4096, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S_, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S4x2048x1024, .f32⟩
  | .hbm, ⟨104, _⟩ => ⟨S1x1x1024, .f32⟩
  | .hbm, ⟨105, _⟩ => ⟨S4x2048x1024, .f32⟩
  | .hbm, ⟨106, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_cst_5 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_v9 : Ref sig .tc := ⟨.hbm, 27, rfl⟩
abbrev main_cst_6 : Ref sig .tc := ⟨.hbm, 28, rfl⟩
abbrev main_v10 : Ref sig .tc := ⟨.hbm, 29, rfl⟩
abbrev main_v11 : Ref sig .tc := ⟨.hbm, 30, rfl⟩
abbrev main_cst_7 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_8 : Ref sig .tc := ⟨.hbm, 35, rfl⟩
abbrev main_cst_9 : Ref sig .tc := ⟨.hbm, 36, rfl⟩
abbrev main_call5_v0 : Ref sig .tc := ⟨.hbm, 37, rfl⟩
abbrev main_call5_v1 : Ref sig .tc := ⟨.hbm, 38, rfl⟩
abbrev main_call5_v2 : Ref sig .tc := ⟨.hbm, 39, rfl⟩
abbrev main_v15 : Ref sig .tc := ⟨.hbm, 40, rfl⟩
abbrev main_cst_10 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_11 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_12 : Ref sig .tc := ⟨.hbm, 52, rfl⟩
abbrev main_cst_13 : Ref sig .tc := ⟨.hbm, 53, rfl⟩
abbrev main_call7_v0 : Ref sig .tc := ⟨.hbm, 54, rfl⟩
abbrev main_call7_v1 : Ref sig .tc := ⟨.hbm, 55, rfl⟩
abbrev main_call7_v2 : Ref sig .tc := ⟨.hbm, 56, rfl⟩
abbrev main_v25 : Ref sig .tc := ⟨.hbm, 57, rfl⟩
abbrev main_cst_14 : Ref sig .tc := ⟨.hbm, 58, rfl⟩
abbrev main_v26 : Ref sig .tc := ⟨.hbm, 59, rfl⟩
abbrev main_v27 : Ref sig .tc := ⟨.hbm, 60, rfl⟩
abbrev main_call8_cst : Ref sig .tc := ⟨.hbm, 61, rfl⟩
abbrev main_call8_v0 : Ref sig .tc := ⟨.hbm, 62, rfl⟩
abbrev main_v28 : Ref sig .tc := ⟨.hbm, 63, rfl⟩
abbrev main_cst_15 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_16 : Ref sig .tc := ⟨.hbm, 68, rfl⟩
abbrev main_cst_17 : Ref sig .tc := ⟨.hbm, 69, rfl⟩
abbrev main_call10_v0 : Ref sig .tc := ⟨.hbm, 70, rfl⟩
abbrev main_call10_v1 : Ref sig .tc := ⟨.hbm, 71, rfl⟩
abbrev main_call10_v2 : Ref sig .tc := ⟨.hbm, 72, rfl⟩
abbrev main_v32 : Ref sig .tc := ⟨.hbm, 73, rfl⟩
abbrev main_cst_18 : Ref sig .tc := ⟨.hbm, 74, rfl⟩
abbrev main_v33 : Ref sig .tc := ⟨.hbm, 75, rfl⟩
abbrev main_v34 : Ref sig .tc := ⟨.hbm, 76, rfl⟩
abbrev main_cst_19 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_20 : Ref sig .tc := ⟨.hbm, 81, rfl⟩
abbrev main_cst_21 : Ref sig .tc := ⟨.hbm, 82, rfl⟩
abbrev main_call12_v0 : Ref sig .tc := ⟨.hbm, 83, rfl⟩
abbrev main_call12_v1 : Ref sig .tc := ⟨.hbm, 84, rfl⟩
abbrev main_call12_v2 : Ref sig .tc := ⟨.hbm, 85, rfl⟩
abbrev main_v38 : Ref sig .tc := ⟨.hbm, 86, rfl⟩
abbrev main_cst_22 : Ref sig .tc := ⟨.hbm, 87, rfl⟩
abbrev main_v39 : Ref sig .tc := ⟨.hbm, 88, rfl⟩
abbrev main_v40 : Ref sig .tc := ⟨.hbm, 89, rfl⟩
abbrev main_cst_23 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_24 : Ref sig .tc := ⟨.hbm, 94, rfl⟩
abbrev main_cst_25 : Ref sig .tc := ⟨.hbm, 95, rfl⟩
abbrev main_call14_v0 : Ref sig .tc := ⟨.hbm, 96, rfl⟩
abbrev main_call14_v1 : Ref sig .tc := ⟨.hbm, 97, rfl⟩
abbrev main_call14_v2 : Ref sig .tc := ⟨.hbm, 98, rfl⟩
abbrev main_v44 : Ref sig .tc := ⟨.hbm, 99, rfl⟩
abbrev main_cst_26 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩

abbrev nD : Nat := 1
abbrev τ : Topo := Topo.v7x

variable {F : FTy → Type} [FloatOps F]

class Facts₀ : Prop where
  bcast_S_S4x2048x1024 : S_.BroadcastsInDim S4x2048x1024 (![] : Fin 0 → Fin S4x2048x1024.rank)
  bcast_S_S4096x1024 : S_.BroadcastsInDim S4096x1024 (![] : Fin 0 → Fin S4096x1024.rank)
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S_S1024x4096 : S_.BroadcastsInDim S1024x4096 (![] : Fin 0 → Fin S1024x4096.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S4096x1024_S4x2048x4096_2_1_01_0_n_n_wf : DotDims.WF S4x2048x1024 S4096x1024 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.KernelRun.lean ====
/-
  The run of the whole program with its result named.

  The program is seventeen stretches of host operations (the quantized, transposed weight matrices and the quantized
  bias rows), the two kernel launches, and one closing host operation (the reshape of the output rows).  Every weakly
  fair execution terminates, and at the end every unscoped buffer holds what folding those segments over the launch
  memory gives; in particular the result buffer holds the fold's value there, and the five arguments are unchanged.
-/
import proofs.«134621_j63136019251234_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the value the
    segments' fold gives it, and the argument arrays end as launched. -/
theorem run_result : θ_run defs (onTc (τ := τ) (main (F := F))) ⟨m, fun _ => 0, ρ⟩ (fun r => ∀ c : Dev nD,
      r.2.mem ((c.tc : Thread nD τ).loc main_v33) = W20 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v33 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c)⟩)

end Cert.KernelIdeal.RunValue

end
-- ==== Proof.Spec.lean ====
/-
  A two-layer perceptron whose activations, weights and biases pass through a fixed-point quantizer.

  The quantizer at scale `s` sends an extended real `x` to `clamp (roundHalfEven (x · s), -128, 127) / s`: the nearest
  multiple of `1/s` inside the signed 8-bit range.  Activations use the scale 16, weights and biases the scale 64.

  For an input `x : [4, 2048, 1024]`, weights `w1 : [4096, 1024]`, `w2 : [1024, 4096]` and biases `b1 : [4096]`,
  `b2 : [1024]` the network's value at `(b, s, o)` is

    out (b, s, o) = Σ_j q16 (h (b, s, j)) · q64 (w2 (o, j)) + q64 (b2 o),
    h (b, s, j)   = max (q16 (Σ_k q16 (x (b, s, k)) · q64 (w1 (j, k)) + q64 (b1 j))) 0.

  The two layers are also stated on their own, for a matrix of any number of rows against an already transposed and
  quantized weight matrix and a bias row: a block of rows of a layer is the same function of that block's rows.
-/
import Idealize.ShloMosaic.PureOps.Ideal
import Idealize.ShloMosaic.Lib.ValueIdx

noncomputable section

namespace Cert.QuantMlp

open Idealize.ShloMosaic Idealize.ShloMosaic.ValueIdx

/-- The fixed-point quantizer at the scale whose f32 word is `s`: scale up, round half to even, clamp to
    `[-128, 127]`, scale down. -/
def quant (s : BitVec 32) (x : EReal) : EReal :=
  Ideal.div (min (Ideal.ofBits .f32 0x42FE0000#32) (max (Ideal.ofBits .f32 0xC3000000#32)
    (Ideal.liftRound Ideal.roundHalfEven (x * Ideal.ofBits .f32 s)))) (Ideal.ofBits .f32 s)

/-- The activation scale, 16. -/
abbrev sAct : BitVec 32 := 0x41800000#32
/-- The weight and bias scale, 64. -/
abbrev sPar : BitVec 32 := 0x42800000#32

/-- The hidden layer at row `p`, unit `j`: the quantized row against column `j` of the (transposed, quantized) weights,
    plus the bias, quantized again and clamped at zero from below. -/
def hiddenAt {M : Nat} (x : (⟨2, ![M, 1024]⟩ : Shape).Idx → EReal) (w : (⟨2, ![1024, 4096]⟩ : Shape).Idx → EReal)
    (b : (⟨2, ![1, 4096]⟩ : Shape).Idx → EReal) (p : Fin M) (j : Fin 4096) : EReal :=
  max (quant sAct ((∑ k : Fin 1024, quant sAct (x (ix2 p k)) * w (ix2 k j)) + b (ix2 0 j))) (Ideal.ofBits .f32 0x00000000#32)

/-- The output layer at row `p`, unit `o`: the quantized hidden row against column `o` of the (transposed, quantized)
    weights, plus the bias. -/
def outAt {M : Nat} (h : (⟨2, ![M, 4096]⟩ : Shape).Idx → EReal) (w : (⟨2, ![4096, 1024]⟩ : Shape).Idx → EReal)
    (b : (⟨2, ![1, 1024]⟩ : Shape).Idx → EReal) (p : Fin M) (o : Fin 1024) : EReal :=
  (∑ j : Fin 4096, quant sAct (h (ix2 p j)) * w (ix2 j o)) + b (ix2 0 o)

/-- The hidden layer at a row depends on that row of the input, one column of the weights and one bias entry. -/
theorem hiddenAt_congr {M M' : Nat} {x : (⟨2, ![M, 1024]⟩ : Shape).Idx → EReal} {x' : (⟨2, ![M', 1024]⟩ : Shape).Idx → EReal}
    {w w' : (⟨2, ![1024, 4096]⟩ : Shape).Idx → EReal} {b b' : (⟨2, ![1, 4096]⟩ : Shape).Idx → EReal}
    {p : Fin M} {p' : Fin M'} {j j' : Fin 4096} (hj : j = j') (hx : ∀ k, x (ix2 p k) = x' (ix2 p' k))
    (hw : ∀ k, w (ix2 k j) = w' (ix2 k j')) (hb : b (ix2 0 j) = b' (ix2 0 j')) :
    hiddenAt x w b p j = hiddenAt x' w' b' p' j' := by
  subst hj
  unfold hiddenAt
  rw [hb]
  simp only [hx, hw]

/-- The output layer at a row depends on that row of the hidden values, one column of the weights and one bias entry. -/
theorem outAt_congr {M M' : Nat} {h : (⟨2, ![M, 4096]⟩ : Shape).Idx → EReal} {h' : (⟨2, ![M', 4096]⟩ : Shape).Idx → EReal}
    {w w' : (⟨2, ![4096, 1024]⟩ : Shape).Idx → EReal} {b b' : (⟨2, ![1, 1024]⟩ : Shape).Idx → EReal}
    {p : Fin M} {p' : Fin M'} {o o' : Fin 1024} (ho : o = o') (hh : ∀ j, h (ix2 p j) = h' (ix2 p' j))
    (hw : ∀ j, w (ix2 j o) = w' (ix2 j o')) (hb : b (ix2 0 o) = b' (ix2 0 o')) :
    outAt h w b p o = outAt h' w' b' p' o' := by
  subst ho
  unfold outAt
  rw [hb]
  simp only [hh, hw]

/-- The hidden layer of the whole network at `(b, s, j)`, from the unquantized parameters. -/
def hidden (x : (⟨3, ![4, 2048, 1024]⟩ : Shape).Idx → EReal) (w1 : (⟨2, ![4096, 1024]⟩ : Shape).Idx → EReal)
    (b1 : (⟨1, ![4096]⟩ : Shape).Idx → EReal) (b : Fin 4) (s : Fin 2048) (j : Fin 4096) : EReal :=
  max (quant sAct ((∑ k : Fin 1024, quant sAct (x (ix3 b s k)) * quant sPar (w1 (ix2 j k))) + quant sPar (b1 (ix1 j))))
    (Ideal.ofBits .f32 0x00000000#32)

/-- The network's output, index by index. -/
def network (x : (⟨3, ![4, 2048, 1024]⟩ : Shape).Idx → EReal) (w1 : (⟨2, ![4096, 1024]⟩ : Shape).Idx → EReal)
    (b1 : (⟨1, ![4096]⟩ : Shape).Idx → EReal) (w2 : (⟨2, ![1024, 4096]⟩ : Shape).Idx → EReal)
    (b2 : (⟨1, ![1024]⟩ : Shape).Idx → EReal) : (⟨3, ![4, 2048, 1024]⟩ : Shape).Idx → EReal := fun i =>
  (∑ j : Fin 4096, quant sAct (hidden x w1 b1 (i 0) (i 1) j) * quant sPar (w2 (ix2 (i 2) j))) + quant sPar (b2 (ix1 (i 2)))

end Cert.QuantMlp

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.Bodies.lean ====
/-
  The two kernel bodies as functions of their loaded blocks, entry by entry.

  The first body quantizes its block of input rows, multiplies it by the weight block, adds the broadcast bias row,
  quantizes again and clamps at zero: entry `(p, q)` of its result is the hidden layer of row `p` at unit `q`.  The
  second body quantizes its block of hidden rows, multiplies by the second weight block and adds the bias row: entry
  `(p, q)` is the output layer of row `p` at unit `q`.  Changes of float format are the identity on extended reals, a
  matrix product into the zero accumulator is the plain sum over the contracted axis, and a bias row broadcast over the
  rows is read at its column.
-/
import proofs.«134621_j63136019251234_2_alg».proof.Proof.Gen.KernelIdeal.Skeleton
import proofs.«134621_j63136019251234_2_alg».proof.Proof.Spec
import proofs.«134621_j63136019251234_2_alg».proof.Proof.LibPlainDot
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.QuantMlp

/-- A bias row `[1, N]` broadcast over `M` rows, read at `(p, q)`, is the row at column `q`. -/
theorem bias_row_apply {M N : Nat} (b : (⟨2, ![1, N]⟩ : Shape).Idx → EReal)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- Rounding half to even, entry by entry. -/
theorem roundeven_apply {s : Shape} {φ : FTy} (a : FVec Ideal s φ) (i : s.Idx) :
    roundeven a i = Ideal.liftRound Ideal.roundHalfEven (a i) := rfl

/-- The first layer's product, entry by entry: the sum over the 1024 input features. -/
theorem matmul1_entry (A : FVec Ideal S256x1024 .bf16) (B : FVec Ideal S1024x4096 .bf16) (p : Fin 256) (q : Fin 4096) :
    matmul dot_S256x1024_S1024x4096_S256x4096_1_0_0_1_n_n none A B (constant S256x4096 .f32 0x00000000#32) (ix2 p q)
      = ∑ k : Fin 1024, A (ix2 p k) * B (ix2 k q) :=
  Cert.Lib.matmul_plain_zero_apply none A B p q

/-- The second layer's product, entry by entry: the sum over the 4096 hidden units. -/
theorem matmul2_entry (A : FVec Ideal S256x4096 .bf16) (B : FVec Ideal S4096x1024 .bf16) (p : Fin 256) (q : Fin 1024) :
    matmul dot_S256x4096_S4096x1024_S256x1024_1_0_0_1_n_n none A B (constant S256x1024 .f32 0x00000000#32) (ix2 p q)
      = ∑ k : Fin 4096, A (ix2 p k) * B (ix2 k q) :=
  Cert.Lib.matmul_plain_zero_apply none A B p q

/-- Entry `(p, q)` of the first body's result is the hidden layer of the block's row `p` at unit `q`. -/
theorem layer1_entry (x0 : Vec Ideal S256x1024 .f32) (x1 : Vec Ideal S1024x4096 .bf16) (x2 : Vec Ideal S1x4096 .f32)
    (p : Fin 256) (q : Fin 4096) :
    k0_pay1 (F := Ideal) x0 x1 x2 (ix2 p q) = hiddenAt x0 x1 x2 p q := by
  unfold k0_pay1 hiddenAt
  simp only [truncf_apply, maximumf_apply, minimumf_apply, divf_apply, mulf_apply, addf_apply, broadcast_apply,
    roundeven_apply]
  rw [matmul1_entry, bias_row_apply]
  simp only [truncf_apply, maximumf_apply, minimumf_apply, divf_apply, mulf_apply, addf_apply, broadcast_apply,
    roundeven_apply, shapeCast_self]
  rfl

/-- Entry `(p, q)` of the second body's result is the output layer of the block's row `p` at unit `q`. -/
theorem layer2_entry (x0 : Vec Ideal S256x4096 .bf16) (x1 : Vec Ideal S4096x1024 .bf16) (x2 : Vec Ideal S1x1024 .f32)
    (p : Fin 256) (q : Fin 1024) :
    k1_pay1 (F := Ideal) x0 x1 x2 (ix2 p q) = outAt x0 x1 x2 p q := by
  unfold k1_pay1 outAt
  simp only [addf_apply]
  rw [matmul2_entry, bias_row_apply]
  simp only [truncf_apply, extf_apply, maximumf_apply, minimumf_apply, divf_apply, mulf_apply, addf_apply, broadcast_apply,
    roundeven_apply, shapeCast_self]
  rfl

end Cert.KernelIdeal.Body

end
-- ==== Proof.Blocks.lean ====
/-
  From blocks to arrays: what each of the two kernel launches leaves in its output array.

  Both launches walk 32 grid points.  At point `t` the row-blocked windows (the input rows and the output rows) sit at
  block row `t`, 256 rows each, and the weight and bias windows are their whole arrays.  So an entry `(p, q)` of the
  block written back at point `t` is the layer's value at array row `256·t + p`, and since the 32 row blocks tile the
  8192 rows, the output array ends as the layer applied to the arrays the launch found, row by row.
-/
import proofs.«134621_j63136019251234_2_alg».proof.Proof.Gen.KernelIdeal.Frame
import proofs.«134621_j63136019251234_2_alg».proof.Proof.Bodies

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.QuantMlp Cert.KernelIdeal.Body
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first launch -/

/-- The hidden layer of every row of the array the first launch reads, against the weight and bias arrays it finds. -/
def hiddenArr (c : Dev nD) : S8192x4096.Idx → EReal := fun i =>
  hiddenAt (V c main_v0) (V c main_v8) (V c main_v15) (i 0) (i 1)

/-- Where each window of the first launch sits at grid point `t`: the row-blocked ones at block row `t`, the
    others at the origin. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` of the first launch writes back is block `t` of the hidden layer of the arrays as found. -/
theorem flushed0 (c : Dev nD) (t : Fin cfg0.N) :
    (dat0 V c).flushed 3 t = ((cfg0.win 3).blk t).view.read (Elt Ideal) (hiddenArr V c) := by
  show (cfg0.win 3).cut (grid0.coords t) ((dat0 V c).after 3 t) = _
  rw [after0_3]
  unfold out0_3
  rw [View.canon_unit_zero zero_offsets]
  simp only [View.ld_unit_zero (S := S256x1024) zero_offsets, View.ld_unit_zero (S := S1024x4096) zero_offsets,
    View.ld_unit_zero (S := S1x4096) zero_offsets]
  obtain ⟨e00, e01, e10, e11, e20, e21, e30, e31⟩ := index_facts0 t
  funext j
  obtain ⟨p, q, rfl⟩ : ∃ (p : Fin 256) (q : Fin 4096), j = ix2 p q := ⟨j 0, j 1, eq_ix2 j⟩
  show k0_pay1 (iblk0 V c 0 t) (iblk0 V c 1 t) (iblk0 V c 2 t) (ix2 p q)
    = hiddenArr V c (((cfg0.win 3).blk t).view.emb (ix2 p q))
  refine (layer1_entry (iblk0 V c 0 t) (iblk0 V c 1 t) (iblk0 V c 2 t) p q).trans ?_
  unfold hiddenArr
  refine hiddenAt_congr (Fin.ext ?_) (fun k => ?_) (fun k => ?_) ?_
  · show q.val = win0_3.index t (1 : Fin 2) * 4096 + 1 * q.val
    omega
  · show V c main_v0 (((cfg0.win 0).blk t).view.emb (ix2 p k)) = V c main_v0 _
    refine congrArg (V c main_v0) (funext fun a => Fin.ext ?_)
    match a with
    | ⟨0, _⟩ =>
      show win0_0.index t (0 : Fin 2) * 256 + 1 * p.val = win0_3.index t (0 : Fin 2) * 256 + 1 * p.val
      omega
    | ⟨1, _⟩ =>
      show win0_0.index t (1 : Fin 2) * 1024 + 1 * k.val = k.val
      omega
  · show V c main_v8 (((cfg0.win 1).blk t).view.emb (ix2 k q)) = V c main_v8 _
    refine congrArg (V c main_v8) (funext fun a => Fin.ext ?_)
    match a with
    | ⟨0, _⟩ =>
      show win0_1.index t (0 : Fin 2) * 1024 + 1 * k.val = k.val
      omega
    | ⟨1, _⟩ =>
      show win0_1.index t (1 : Fin 2) * 4096 + 1 * q.val = win0_3.index t (1 : Fin 2) * 4096 + 1 * q.val
      omega
  · show V c main_v15 (((cfg0.win 2).blk t).view.emb (ix2 0 q)) = V c main_v15 _
    refine congrArg (V c main_v15) (funext fun a => Fin.ext ?_)
    match a with
    | ⟨0, _⟩ =>
      show win0_2.index t (0 : Fin 2) * 1 + 1 * 0 = 0
      omega
    | ⟨1, _⟩ =>
      show win0_2.index t (1 : Fin 2) * 4096 + 1 * q.val = win0_3.index t (1 : Fin 2) * 4096 + 1 * q.val
      omega

/-- An index of the hidden array is in point `t`'s block iff each coordinate is in the block's range on its axis. -/
theorem mem_block0 (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v31).slice (win0_3.rect t)).set ↔ _
  rw [View.set_slice_whole, Rect.mem_set_unit]
  exact Iff.rfl

/-- Row `r` of the hidden array lies in the block of point `r / 256`: the 32 row blocks tile the array. -/
theorem cover0 (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨(i 0).val / 256, by rw [show cfg0.N = 32 from N_0]; omega⟩
  refine ⟨t, flush0_3 t, ?_⟩
  obtain ⟨-, -, -, -, -, -, e30, e31⟩ := index_facts0 t
  have ht : t.val = (i 0).val / 256 := rfl
  rw [mem_block0]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- After the first launch its output array holds the hidden layer of the arrays it found. -/
theorem hidden_array (c : Dev nD) : (dat0 V c).arrAt 3 cfg0.N = hiddenArr V c :=
  (dat0 V c).arrAt_eq_of_cover 3 (hiddenArr V c) (fun t _ => flushed0 V c t) cover0

/-! ## The second launch -/

/-- The output layer of every row of the array the second launch reads, against the weight and bias arrays it finds. -/
def outArr (c : Dev nD) : S8192x1024.Idx → EReal := fun i =>
  outAt (V c main_v31) (V c main_v23) (V c main_v30) (i 0) (i 1)

/-- Where each window of the second launch sits at grid point `t`. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` of the second launch writes back is block `t` of the output layer of the arrays as found. -/
theorem flushed1 (c : Dev nD) (t : Fin cfg1.N) :
    (dat1 V c).flushed 3 t = ((cfg1.win 3).blk t).view.read (Elt Ideal) (outArr V c) := by
  show (cfg1.win 3).cut (grid1.coords t) ((dat1 V c).after 3 t) = _
  rw [after1_3]
  unfold out1_3
  rw [View.canon_unit_zero zero_offsets]
  simp only [View.ld_unit_zero (S := S256x4096) zero_offsets, View.ld_unit_zero (S := S4096x1024) zero_offsets,
    View.ld_unit_zero (S := S1x1024) zero_offsets]
  obtain ⟨e00, e01, e10, e11, e20, e21, e30, e31⟩ := index_facts1 t
  funext j
  obtain ⟨p, q, rfl⟩ : ∃ (p : Fin 256) (q : Fin 1024), j = ix2 p q := ⟨j 0, j 1, eq_ix2 j⟩
  show k1_pay1 (iblk1 V c 0 t) (iblk1 V c 1 t) (iblk1 V c 2 t) (ix2 p q)
    = outArr V c (((cfg1.win 3).blk t).view.emb (ix2 p q))
  refine (layer2_entry (iblk1 V c 0 t) (iblk1 V c 1 t) (iblk1 V c 2 t) p q).trans ?_
  unfold outArr
  refine outAt_congr (Fin.ext ?_) (fun k => ?_) (fun k => ?_) ?_
  · show q.val = win1_3.index t (1 : Fin 2) * 1024 + 1 * q.val
    omega
  · show V c main_v31 (((cfg1.win 0).blk t).view.emb (ix2 p k)) = V c main_v31 _
    refine congrArg (V c main_v31) (funext fun a => Fin.ext ?_)
    match a with
    | ⟨0, _⟩ =>
      show win1_0.index t (0 : Fin 2) * 256 + 1 * p.val = win1_3.index t (0 : Fin 2) * 256 + 1 * p.val
      omega
    | ⟨1, _⟩ =>
      show win1_0.index t (1 : Fin 2) * 4096 + 1 * k.val = k.val
      omega
  · show V c main_v23 (((cfg1.win 1).blk t).view.emb (ix2 k q)) = V c main_v23 _
    refine congrArg (V c main_v23) (funext fun a => Fin.ext ?_)
    match a with
    | ⟨0, _⟩ =>
      show win1_1.index t (0 : Fin 2) * 4096 + 1 * k.val = k.val
      omega
    | ⟨1, _⟩ =>
      show win1_1.index t (1 : Fin 2) * 1024 + 1 * q.val = win1_3.index t (1 : Fin 2) * 1024 + 1 * q.val
      omega
  · show V c main_v30 (((cfg1.win 2).blk t).view.emb (ix2 0 q)) = V c main_v30 _
    refine congrArg (V c main_v30) (funext fun a => Fin.ext ?_)
    match a with
    | ⟨0, _⟩ =>
      show win1_2.index t (0 : Fin 2) * 1 + 1 * 0 = 0
      omega
    | ⟨1, _⟩ =>
      show win1_2.index t (1 : Fin 2) * 1024 + 1 * q.val = win1_3.index t (1 : Fin 2) * 1024 + 1 * q.val
      omega

/-- An index of the output array is in point `t`'s block iff each coordinate is in the block's range on its axis. -/
theorem mem_block1 (t : Fin cfg1.N) (i : S8192x1024.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v32).slice (win1_3.rect t)).set ↔ _
  rw [View.set_slice_whole, Rect.mem_set_unit]
  exact Iff.rfl

/-- Row `r` of the output array lies in the block of point `r / 256`. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  let t : Fin cfg1.N := ⟨(i 0).val / 256, by rw [show cfg1.N = 32 from N_1]; omega⟩
  refine ⟨t, flush1_3 t, ?_⟩
  obtain ⟨-, -, -, -, -, -, e30, e31⟩ := index_facts1 t
  have ht : t.val = (i 0).val / 256 := rfl
  rw [mem_block1]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-- After the second launch its output array holds the output layer of the arrays it found. -/
theorem out_array (c : Dev nD) : (dat1 V c).arrAt 3 cfg1.N = outArr V c :=
  (dat1 V c).arrAt_eq_of_cover 3 (outArr V c) (fun t _ => flushed1 V c t) cover1

end Cert.KernelIdeal.Blocks

end
-- ==== Proof.HostSide.lean ====
/-
  The host operations around the two launches, read at an entry.

  Before the first launch the host reshapes the input to a matrix of 8192 rows, quantizes each weight matrix at scale 64
  and transposes it, and quantizes each bias vector at scale 64 and lays it out as a one-row matrix.  After the second
  launch it reshapes the 8192 output rows back to `[4, 2048, 1024]`.  Row `r = 2048·b + s` of a reshaped matrix is row
  `(b, s)` of the rank-3 array; a transposed matrix at `(k, j)` is the matrix at `(j, k)`; a one-row matrix at `(0, j)` is
  the vector at `j`; and the host's quantizer (multiply, round half to even, clamp, divide, the clamp's bounds splat
  over the array) is the scalar quantizer at every entry.
-/
import proofs.«134621_j63136019251234_2_alg».proof.Proof.Gen.KernelIdeal.Frame
import proofs.«134621_j63136019251234_2_alg».proof.Proof.Spec
import Idealize.ShloMosaic.Lib.StableHlo.Run
import Idealize.ShloMosaic.Lib.ValueLayout
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo Cert.QuantMlp

/-- The host's quantizer at scale 64 on a whole array: the scale, and the clamp's two bounds, are scalars splat over
    the array's shape. -/
def hostQuant (s : Shape) (hb : S_.BroadcastsInDim s (![] : Fin 0 → Fin s.rank)) (x : FVec Ideal s .f32) : FVec Ideal s .f32 :=
  Host.divf
    (minimumf (broadcastInDim s ![] hb (id (constant S_ .f32 0x42FE0000#32)))
      (maximumf (broadcastInDim s ![] hb (id (constant S_ .f32 0xC3000000#32)))
        (Host.roundeven (mulf x (broadcastInDim s ![] hb (constant S_ .f32 0x42800000#32))))))
    (broadcastInDim s ![] hb (constant S_ .f32 0x42800000#32))

/-- Entry by entry it is the scalar quantizer. -/
theorem hostQuant_apply (s : Shape) (hb : S_.BroadcastsInDim s (![] : Fin 0 → Fin s.rank)) (x : FVec Ideal s .f32)
    (i : s.Idx) : hostQuant s hb x i = quant sPar (x i) := rfl

/-- A rank-3 array `[P, S, K]` reshaped to `[R, K]` reads, at row `r = p·S + s`, its row `(p, s)`. -/
theorem merge_rows_apply {α : Type} {P S K R : Nat} (x : (⟨3, ![P, S, K]⟩ : Shape).Idx → α)
    (h : (⟨3, ![P, S, K]⟩ : Shape).ShapeCasts ⟨2, ![R, K]⟩) (p : Fin P) (s : Fin S) (d : Fin K) (r : Fin R)
    (hr : r.val = p.val * S + s.val) :
    shapeCast ⟨2, ![R, K]⟩ x h (ix2 r d) = x (ix3 p s d) :=
  shapeCast_apply x h _ _ (by
    rw [Shape.rowMajor_val_three, Shape.rowMajor_val_two]
    show (p.val * S + s.val) * K + d.val = r.val * K + d.val
    rw [hr])

/-- A matrix `[R, K]` reshaped to `[P, S, K]` reads, at `(p, s)`, its row `r = p·S + s`. -/
theorem split_rows_apply {α : Type} {P S K R : Nat} (x : (⟨2, ![R, K]⟩ : Shape).Idx → α)
    (h : (⟨2, ![R, K]⟩ : Shape).ShapeCasts ⟨3, ![P, S, K]⟩) (p : Fin P) (s : Fin S) (d : Fin K) (r : Fin R)
    (hr : r.val = p.val * S + s.val) :
    shapeCast ⟨3, ![P, S, K]⟩ x h (ix3 p s d) = x (ix2 r d) :=
  shapeCast_apply x h _ _ (by
    rw [Shape.rowMajor_val_two, Shape.rowMajor_val_three]
    show r.val * K + d.val = (p.val * S + s.val) * K + d.val
    rw [hr])

variable (m : (ℓ : Loc nD τ sig) → Buf (Elt Ideal) ℓ) (ρ : Dev nD → PrngReg)

/-! ## The arrays the first launch finds -/

theorem rows_eq (c : Dev nD) : (W17 m ρ c (Proc.devRef .tc main_v0) : S8192x1024.Idx → EReal)
    = shapeCast S8192x1024 (m ((c : Thread nD τ).loc main_arg0)) Facts₀.shapeCasts_S4x2048x1024_S8192x1024 := by
  after_results_simp
  rfl

theorem wT1_eq (c : Dev nD) : (W17 m ρ c (Proc.devRef .tc main_v8) : S1024x4096.Idx → EReal)
    = transpose S1024x4096 [1, 0] (truncf .bf16 (hostQuant S4096x1024 Facts₀.bcast_S_S4096x1024
        (m ((c : Thread nD τ).loc main_arg1))) Facts₀.bitsLt_bf16_f32) Facts₀.transposes_S4096x1024_S1024x4096_1_0 := by
  after_results_simp
  rfl

theorem b1_eq (c : Dev nD) : (W17 m ρ c (Proc.devRef .tc main_v15) : S1x4096.Idx → EReal)
    = shapeCast S1x4096 (hostQuant S4096 Facts₀.bcast_S_S4096 (m ((c : Thread nD τ).loc main_arg2)))
        Facts₀.shapeCasts_S4096_S1x4096 := by
  after_results_simp
  rfl

theorem wT2_eq (c : Dev nD) : (W17 m ρ c (Proc.devRef .tc main_v23) : S4096x1024.Idx → EReal)
    = transpose S4096x1024 [1, 0] (truncf .bf16 (hostQuant S1024x4096 Facts₀.bcast_S_S1024x4096
        (m ((c : Thread nD τ).loc main_arg3))) Facts₀.bitsLt_bf16_f32) Facts₀.transposes_S1024x4096_S4096x1024_1_0 := by
  after_results_simp
  rfl

theorem b2_eq (c : Dev nD) : (W17 m ρ c (Proc.devRef .tc main_v30) : S1x1024.Idx → EReal)
    = shapeCast S1x1024 (hostQuant S1024 Facts₀.bcast_S_S1024 (m ((c : Thread nD τ).loc main_arg4)))
        Facts₀.shapeCasts_S1024_S1x1024 := by
  after_results_simp
  rfl

/-! ## The same arrays at an entry -/

/-- Row `2048·b + s` of the matrix the first launch reads is row `(b, s)` of the input. -/
theorem rows_entry (c : Dev nD) (b : Fin 4) (s : Fin 2048) (k : Fin 1024) (r : Fin 8192) (hr : r.val = b.val * 2048 + s.val) :
    (W17 m ρ c (Proc.devRef .tc main_v0) : S8192x1024.Idx → EReal) (ix2 r k) = m ((c : Thread nD τ).loc main_arg0) (ix3 b s k) := by
  rw [rows_eq]
  exact merge_rows_apply _ _ b s k r hr

/-- The first launch's weight matrix at `(k, j)` is the quantized first weight matrix at `(j, k)`. -/
theorem wT1_entry (c : Dev nD) (k : Fin 1024) (j : Fin 4096) :
    (W17 m ρ c (Proc.devRef .tc main_v8) : S1024x4096.Idx → EReal) (ix2 k j)
      = quant sPar (m ((c : Thread nD τ).loc main_arg1) (ix2 j k)) := by
  rw [wT1_eq]
  exact (transpose_ix2_apply _ _ k j).trans rfl

/-- The first launch's bias row at `(0, j)` is the quantized first bias at `j`. -/
theorem b1_entry (c : Dev nD) (j : Fin 4096) :
    (W17 m ρ c (Proc.devRef .tc main_v15) : S1x4096.Idx → EReal) (ix2 0 j)
      = quant sPar (m ((c : Thread nD τ).loc main_arg2) (ix1 j)) := by
  rw [b1_eq]
  exact (shapeCast_a_1a_apply _ _ 0 j).trans rfl

/-- The second launch's weight matrix at `(j, o)` is the quantized second weight matrix at `(o, j)`. -/
theorem wT2_entry (c : Dev nD) (j : Fin 4096) (o : Fin 1024) :
    (W17 m ρ c (Proc.devRef .tc main_v23) : S4096x1024.Idx → EReal) (ix2 j o)
      = quant sPar (m ((c : Thread nD τ).loc main_arg3) (ix2 o j)) := by
  rw [wT2_eq]
  exact (transpose_ix2_apply _ _ j o).trans rfl

/-- The second launch's bias row at `(0, o)` is the quantized second bias at `o`. -/
theorem b2_entry (c : Dev nD) (o : Fin 1024) :
    (W17 m ρ c (Proc.devRef .tc main_v30) : S1x1024.Idx → EReal) (ix2 0 o)
      = quant sPar (m ((c : Thread nD τ).loc main_arg4) (ix1 o)) := by
  rw [b2_eq]
  exact (shapeCast_a_1a_apply _ _ 0 o).trans rfl

/-! ## The closing reshape -/

theorem result_eq (c : Dev nD) : (W20 m ρ c (Proc.devRef .tc main_v33) : S4x2048x1024.Idx → EReal)
    = shapeCast S4x2048x1024 (W19 m ρ c (Proc.devRef .tc main_v32) : S8192x1024.Idx → EReal)
        Facts₀.shapeCasts_S8192x1024_S4x2048x1024 := by
  after_results_simp
  rfl

/-- The result at `(b, s, o)` is row `2048·b + s` of the second launch's output array. -/
theorem result_entry (c : Dev nD) (b : Fin 4) (s : Fin 2048) (o : Fin 1024) (r : Fin 8192) (hr : r.val = b.val * 2048 + s.val) :
    (W20 m ρ c (Proc.devRef .tc main_v33) : S4x2048x1024.Idx → EReal) (ix3 b s o)
      = (W19 m ρ c (Proc.devRef .tc main_v32) : S8192x1024.Idx → EReal) (ix2 r o) := by
  rw [result_eq]
  exact split_rows_apply _ _ b s o r hr

end Cert.KernelIdeal.HostSide

end
-- ==== Proof.Rows.lean ====
/-
  The two layers on matrices of 8192 rows are the network's layers on the rank-3 input.

  Row `r = 2048·b + s` of the reshaped input is row `(b, s)` of the input.  If the first layer's weight matrix is the
  transposed quantized first weights and its bias row the quantized first bias, the hidden layer of row `r` is the
  network's hidden layer at `(b, s)`; if moreover the second layer's weight matrix is the transposed quantized second
  weights and its bias row the quantized second bias, the output layer of row `r` is the network's output at `(b, s, ·)`.
-/
import proofs.«134621_j63136019251234_2_alg».proof.Proof.Spec

noncomputable section

namespace Cert.QuantMlp

open Idealize.ShloMosaic Idealize.ShloMosaic.ValueIdx

/-- The matrix row that holds row `s` of batch `b`. -/
def rowOf (b : Fin 4) (s : Fin 2048) : Fin 8192 := ⟨b.val * 2048 + s.val, by have := b.isLt; have := s.isLt; omega⟩

theorem rowOf_val (b : Fin 4) (s : Fin 2048) : (rowOf b s).val = b.val * 2048 + s.val := rfl

/-- The hidden layer of a matrix row is the network's hidden layer, when the matrices are the reshaped input, the
    transposed quantized weights and the quantized bias row. -/
theorem hiddenAt_eq_hidden {X : (⟨2, ![8192, 1024]⟩ : Shape).Idx → EReal} {WT : (⟨2, ![1024, 4096]⟩ : Shape).Idx → EReal}
    {B : (⟨2, ![1, 4096]⟩ : Shape).Idx → EReal} {x : (⟨3, ![4, 2048, 1024]⟩ : Shape).Idx → EReal}
    {w1 : (⟨2, ![4096, 1024]⟩ : Shape).Idx → EReal} {b1 : (⟨1, ![4096]⟩ : Shape).Idx → EReal}
    {r : Fin 8192} {b : Fin 4} {s : Fin 2048} (hX : ∀ k, X (ix2 r k) = x (ix3 b s k))
    (hW : ∀ k j, WT (ix2 k j) = quant sPar (w1 (ix2 j k))) (hB : ∀ j, B (ix2 0 j) = quant sPar (b1 (ix1 j)))
    (j : Fin 4096) : hiddenAt X WT B r j = hidden x w1 b1 b s j := by
  unfold hiddenAt hidden
  rw [hB]
  simp only [hX, hW]

/-- The output layer of a matrix row is the network's output, when the hidden matrix holds the network's hidden layer
    and the matrices are the transposed quantized weights and the quantized bias row. -/
theorem outAt_eq_network {H : (⟨2, ![8192, 4096]⟩ : Shape).Idx → EReal} {WT : (⟨2, ![4096, 1024]⟩ : Shape).Idx → EReal}
    {B : (⟨2, ![1, 1024]⟩ : Shape).Idx → EReal} {x : (⟨3, ![4, 2048, 1024]⟩ : Shape).Idx → EReal}
    {w1 : (⟨2, ![4096, 1024]⟩ : Shape).Idx → EReal} {b1 : (⟨1, ![4096]⟩ : Shape).Idx → EReal}
    {w2 : (⟨2, ![1024, 4096]⟩ : Shape).Idx → EReal} {b2 : (⟨1, ![1024]⟩ : Shape).Idx → EReal}
    {r : Fin 8192} {b : Fin 4} {s : Fin 2048} (hH : ∀ j, H (ix2 r j) = hidden x w1 b1 b s j)
    (hW : ∀ j o, WT (ix2 j o) = quant sPar (w2 (ix2 o j))) (hB : ∀ o, B (ix2 0 o) = quant sPar (b2 (ix1 o)))
    (o : Fin 1024) : outAt H WT B r o = network x w1 b1 w2 b2 (ix3 b s o) := by
  unfold outAt network
  rw [hB]
  simp only [hH, hW]

end Cert.QuantMlp

end
-- ==== Proof.KernelIsSpec.lean ====
/-
  The kernel program's result is the network's output, index by index.

  The result at `(b, s, o)` is row `r = 2048·b + s`, column `o`, of the second launch's output array: the output layer of
  row `r` of the hidden array against the transposed quantized second weights and the quantized second bias row.  The
  hidden array is the first launch's output: the hidden layer of row `r` of the reshaped input against the transposed
  quantized first weights and the quantized first bias row; the second launch finds it, and the second weight and bias
  arrays, as the first launch and the host left them.  Reading each host-made array at an entry gives the network.
-/
import proofs.«134621_j63136019251234_2_alg».proof.Proof.Blocks
import proofs.«134621_j63136019251234_2_alg».proof.Proof.HostSide
import proofs.«134621_j63136019251234_2_alg».proof.Proof.Rows

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.QuantMlp Cert.KernelIdeal.Blocks Cert.KernelIdeal.HostSide

variable (m : (ℓ : Loc nD τ sig) → Buf (Elt Ideal) ℓ) (ρ : Dev nD → PrngReg)

/-- The second launch reads, as its rows, the hidden layer the first launch wrote. -/
theorem hidden_buf (c : Dev nD) : (W18 m ρ c (Proc.devRef .tc main_v31) : S8192x4096.Idx → EReal) = hiddenArr (V17 m ρ) c :=
  (W18_arr m ρ c 3).trans (hidden_array (V17 m ρ) c)

/-- The first launch leaves the second weight matrix as the host made it. -/
theorem wT2_buf (c : Dev nD) : (W18 m ρ c (Proc.devRef .tc main_v23) : S4096x1024.Idx → EReal)
    = (W17 m ρ c (Proc.devRef .tc main_v23) : S4096x1024.Idx → EReal) :=
  W18_of_ne m ρ c main_v23 (by decide)

/-- The first launch leaves the second bias row as the host made it. -/
theorem b2_buf (c : Dev nD) : (W18 m ρ c (Proc.devRef .tc main_v30) : S1x1024.Idx → EReal)
    = (W17 m ρ c (Proc.devRef .tc main_v30) : S1x1024.Idx → EReal) :=
  W18_of_ne m ρ c main_v30 (by decide)

/-- After the second launch its output array is the output layer of what it found. -/
theorem out_buf (c : Dev nD) : (W19 m ρ c (Proc.devRef .tc main_v32) : S8192x1024.Idx → EReal) = outArr (V18 m ρ) c :=
  (W19_arr m ρ c 3).trans (out_array (V18 m ρ) c)

/-- The hidden array at row `2048·b + s` is the network's hidden layer at `(b, s)`. -/
theorem hidden_entry (c : Dev nD) (b : Fin 4) (s : Fin 2048) (j : Fin 4096) :
    (W18 m ρ c (Proc.devRef .tc main_v31) : S8192x4096.Idx → EReal) (ix2 (rowOf b s) j)
      = hidden (m ((c : Thread nD τ).loc main_arg0)) (m ((c : Thread nD τ).loc main_arg1))
          (m ((c : Thread nD τ).loc main_arg2)) b s j := by
  refine (congrFun (hidden_buf m ρ c) (ix2 (rowOf b s) j)).trans ?_
  exact hiddenAt_eq_hidden (fun k => rows_entry m ρ c b s k (rowOf b s) (rowOf_val b s))
    (fun k j => wT1_entry m ρ c k j) (fun j => b1_entry m ρ c j) j

/-- The second launch's output array at row `2048·b + s`, column `o`, is the network's output at `(b, s, o)`. -/
theorem out_entry (c : Dev nD) (b : Fin 4) (s : Fin 2048) (o : Fin 1024) :
    (W19 m ρ c (Proc.devRef .tc main_v32) : S8192x1024.Idx → EReal) (ix2 (rowOf b s) o)
      = network (m ((c : Thread nD τ).loc main_arg0)) (m ((c : Thread nD τ).loc main_arg1)) (m ((c : Thread nD τ).loc main_arg2))
          (m ((c : Thread nD τ).loc main_arg3)) (m ((c : Thread nD τ).loc main_arg4)) (ix3 b s o) := by
  refine (congrFun (out_buf m ρ c) (ix2 (rowOf b s) o)).trans ?_
  exact outAt_eq_network (fun j => hidden_entry m ρ c b s j)
    (fun j o => (congrFun (wT2_buf m ρ c) (ix2 j o)).trans (wT2_entry m ρ c j o))
    (fun o => (congrFun (b2_buf m ρ c) (ix2 0 o)).trans (b2_entry m ρ c o)) o

/-- The result at `(b, s, o)` is the network's output there. -/
theorem kernel_entry (c : Dev nD) (b : Fin 4) (s : Fin 2048) (o : Fin 1024) :
    (W20 m ρ c (Proc.devRef .tc main_v33) : S4x2048x1024.Idx → EReal) (ix3 b s o)
      = network (m ((c : Thread nD τ).loc main_arg0)) (m ((c : Thread nD τ).loc main_arg1)) (m ((c : Thread nD τ).loc main_arg2))
          (m ((c : Thread nD τ).loc main_arg3)) (m ((c : Thread nD τ).loc main_arg4)) (ix3 b s o) :=
  (result_entry m ρ c b s o (rowOf b s) (rowOf_val b s)).trans (out_entry m ρ c b s o)

/-- The kernel program's result array is the network of its five arguments. -/
theorem kernel_eq (c : Dev nD) : (W20 m ρ c (Proc.devRef .tc main_v33) : S4x2048x1024.Idx → EReal)
    = network (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨b, s, o, rfl⟩ : ∃ (b : Fin 4) (s : Fin 2048) (o : Fin 1024), i = ix3 b s o := ⟨i 0, i 1, i 2, eq_ix3 i⟩
  exact kernel_entry m ρ c b s o

end Cert.KernelIdeal.KernelValue

end
-- ==== Proof.RefIsSpec.lean ====
/-
  The reference program's result is the network's output, index by index.

  The reference quantizes the input (scale 16), both weight matrices and both bias vectors (scale 64), contracts the
  quantized input with the first weight matrix over the feature axis, adds the bias over the leading axes, quantizes,
  clamps at zero, quantizes again, contracts with the second weight matrix over the hidden axis and adds the second bias.
  Read one operation at a time at an index, the constants are their words at every index, a contraction is the sum over
  its contracted coordinate, and a bias broadcast over the leading axes is the bias at the last coordinate.
-/
import proofs.«134621_j63136019251234_2_alg».proof.Proof.Gen.ReferenceIdeal.Read
import proofs.«134621_j63136019251234_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.QuantMlp

/-! ## The composed index maps, in coordinates -/

theorem x_idx (i : S4x2048x1024.Idx) (j : Fin 4096) (k : Fin 1024) :
    lidx_main_v18 (lidx_main_v47 i j) k = ix3 (i 0) (i 1) k :=
  funext fun a => by match a with | ⟨0, _⟩ => rfl | ⟨1, _⟩ => rfl | ⟨2, _⟩ => rfl

theorem w1_idx (i : S4x2048x1024.Idx) (j : Fin 4096) (k : Fin 1024) :
    ridx_main_v18 (lidx_main_v47 i j) k = ix2 j k :=
  funext fun a => by match a with | ⟨0, _⟩ => rfl | ⟨1, _⟩ => rfl

theorem b1_idx (i : S4x2048x1024.Idx) (j : Fin 4096) :
    idx_main_v19 (idx_main_v20 (lidx_main_v47 i j)) = ix1 j :=
  funext fun a => by match a with | ⟨0, _⟩ => rfl

theorem w2_idx (i : S4x2048x1024.Idx) (j : Fin 4096) : ridx_main_v47 i j = ix2 (i 2) j :=
  funext fun a => by match a with | ⟨0, _⟩ => rfl | ⟨1, _⟩ => rfl

theorem b2_idx (i : S4x2048x1024.Idx) : idx_main_v48 (idx_main_v49 i) = ix1 (i 2) :=
  funext fun a => by match a with | ⟨0, _⟩ => rfl

/-- The reference's result array is the network of its five arguments. -/
theorem reference_eq (x : (⟨S4x2048x1024, .f32⟩ : BufTy).Contents (Elt Ideal)) (w1 : (⟨S4096x1024, .f32⟩ : BufTy).Contents (Elt Ideal))
    (b1 : (⟨S4096, .f32⟩ : BufTy).Contents (Elt Ideal)) (w2 : (⟨S1024x4096, .f32⟩ : BufTy).Contents (Elt Ideal))
    (b2 : (⟨S1024, .f32⟩ : BufTy).Contents (Elt Ideal)) :
    val_main_v50 (F := Ideal) x w1 b1 w2 b2 = network x w1 b1 w2 b2 := by
  funext i
  simp only [val_main_cst_apply, val_main_v0_apply, val_main_v1_apply, val_main_v2_apply, val_main_cst_0_apply, val_main_cst_1_apply, val_main_call1_v0_apply, val_main_call1_v1_apply, val_main_call1_v2_apply, val_main_v3_apply, val_main_cst_2_apply, val_main_v4_apply, val_main_v5_apply, val_main_cst_3_apply, val_main_v6_apply, val_main_v7_apply, val_main_v8_apply, val_main_cst_4_apply, val_main_cst_5_apply, val_main_call3_v0_apply, val_main_call3_v1_apply, val_main_call3_v2_apply, val_main_v9_apply, val_main_cst_6_apply, val_main_v10_apply, val_main_v11_apply, val_main_cst_7_apply, val_main_v12_apply, val_main_v13_apply, val_main_v14_apply, val_main_cst_8_apply, val_main_cst_9_apply, val_main_call5_v0_apply, val_main_call5_v1_apply, val_main_call5_v2_apply, val_main_v15_apply, val_main_cst_10_apply, val_main_v16_apply, val_main_v17_apply, val_main_v18_apply, val_main_v19_apply, val_main_v20_apply, val_main_v21_apply, val_main_cst_11_apply, val_main_v22_apply, val_main_v23_apply, val_main_v24_apply, val_main_cst_12_apply, val_main_cst_13_apply, val_main_call7_v0_apply, val_main_call7_v1_apply, val_main_call7_v2_apply, val_main_v25_apply, val_main_cst_14_apply, val_main_v26_apply, val_main_v27_apply, val_main_call8_cst_apply, val_main_call8_v0_apply, val_main_v28_apply, val_main_cst_15_apply, val_main_v29_apply, val_main_v30_apply, val_main_v31_apply, val_main_cst_16_apply, val_main_cst_17_apply, val_main_call10_v0_apply, val_main_call10_v1_apply, val_main_call10_v2_apply, val_main_v32_apply, val_main_cst_18_apply, val_main_v33_apply, val_main_v34_apply, val_main_cst_19_apply, val_main_v35_apply, val_main_v36_apply, val_main_v37_apply, val_main_cst_20_apply, val_main_cst_21_apply, val_main_call12_v0_apply, val_main_call12_v1_apply, val_main_call12_v2_apply, val_main_v38_apply, val_main_cst_22_apply, val_main_v39_apply, val_main_v40_apply, val_main_cst_23_apply, val_main_v41_apply, val_main_v42_apply, val_main_v43_apply, val_main_cst_24_apply, val_main_cst_25_apply, val_main_call14_v0_apply, val_main_call14_v1_apply, val_main_call14_v2_apply, val_main_v44_apply, val_main_cst_26_apply, val_main_v45_apply, val_main_v46_apply, val_main_v47_apply, val_main_v48_apply, val_main_v49_apply, val_main_v50_apply]
  simp only [x_idx, w1_idx, b1_idx, w2_idx, b2_idx]
  rfl

end Cert.ReferenceIdeal.RefValue

end
-- ==== Proof.lean ====
/-
  A two-layer perceptron with fixed-point fake quantization, computed by two row-blocked kernel launches, against its
  plain reference: both end at the same extended reals.

  At the extended reals the quantizer is one function of a number (scale, round half to even, clamp, scale back), a change
  of float format is the identity, and a matrix product is the sum over the contracted axis whatever its tiling.  The
  kernel program quantizes and transposes the weights on the host, runs the first layer 256 rows at a time into a hidden
  array, runs the second layer 256 rows at a time from that array, and reshapes; the reference contracts the rank-3 input
  directly.  Row `2048·b + s` of the kernel's matrices is row `(b, s)` of the reference's arrays, and with that the two
  results are the same sums of the same terms: no algebraic law beyond re-indexing is needed, so the finiteness of the
  inputs is never used.

  The kernel's value is read off its frame run: the run with the result buffer named (KernelRun), each launch's output
  array as a layer of the arrays it finds (Blocks, over the bodies' entries in Bodies), the host-made arrays at an entry
  (HostSide), put together in KernelIsSpec.  The reference's value is its run read one operation at a time (RefIsSpec).
-/
import proofs.«134621_j63136019251234_2_alg».proof.Defs
import proofs.«134621_j63136019251234_2_alg».proof.Proof.Gen.Kernel
import proofs.«134621_j63136019251234_2_alg».proof.Proof.Gen.Kernel.Skeleton
import proofs.«134621_j63136019251234_2_alg».proof.Proof.Gen.Kernel.Launch
import proofs.«134621_j63136019251234_2_alg».proof.Proof.Gen.Kernel.Points
import proofs.«134621_j63136019251234_2_alg».proof.Proof.Gen.Kernel.Frame
import proofs.«134621_j63136019251234_2_alg».proof.Proof.Gen.KernelIdeal
import proofs.«134621_j63136019251234_2_alg».proof.Proof.Gen.KernelIdeal.Skeleton
import proofs.«134621_j63136019251234_2_alg».proof.Proof.Gen.KernelIdeal.Launch
import proofs.«134621_j63136019251234_2_alg».proof.Proof.Gen.KernelIdeal.Points
import proofs.«134621_j63136019251234_2_alg».proof.Proof.Gen.KernelIdeal.Frame
import proofs.«134621_j63136019251234_2_alg».proof.Proof.Gen.ReferenceIdeal
import proofs.«134621_j63136019251234_2_alg».proof.Proof.Gen.Pre_finite_inputs
import proofs.«134621_j63136019251234_2_alg».proof.Proof.Gen.ReferenceIdeal.Run
import proofs.«134621_j63136019251234_2_alg».proof.Proof.Gen.ReferenceIdeal.Read
import proofs.«134621_j63136019251234_2_alg».proof.Proof.KernelRun
import proofs.«134621_j63136019251234_2_alg».proof.Proof.KernelIsSpec
import proofs.«134621_j63136019251234_2_alg».proof.Proof.RefIsSpec
import Idealize.ShloMosaic.Adequacy
import Idealize.ShloMosaic.Init

noncomputable section

namespace Cert.Proof

open Idealize.ShloMosaic Idealize.ShloMosaic.TcCoe Idealize.SL.Sem Cert.QuantMlp

/-- The two idealized programs, run from memories that agree on the five arguments, both end with the network's output
    of those arguments in their result buffers, and leave the arguments as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.kernel_eq m ρ c), (h c).2⟩)
      (Cert.KernelIdeal.RunValue.run_result (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v50_eq, Cert.ReferenceIdeal.RefValue.reference_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
